-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024 : Shape := ⟨1, ![1024]⟩
abbrev S1x1024 : Shape := ⟨2, ![1, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32768x1024 .f32) (main_arg1 : FVec F S1024 .f32) (main_arg2 : FVec F S1x1024 .f32) (main_arg3 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32768x1024 : Shape := ⟨2, ![32768, 1024]⟩
abbrev S1024 : Shape := ⟨1, ![1024]⟩
abbrev S1x1024 : Shape := ⟨2, ![1, 1024]⟩
abbrev S32768x1 : Shape := ⟨2, ![32768, 1]⟩
abbrev S1 : Shape := ⟨1, ![1]⟩
abbrev S_ : Shape := ⟨0, ![]⟩
abbrev S1x1 : Shape := ⟨2, ![1, 1]⟩
abbrev S4096x1 : Shape := ⟨2, ![4096, 1]⟩
abbrev S4096x1024 : Shape := ⟨2, ![4096, 1024]⟩

abbrev nBuf : Space → Nat
  | .hbm => 11
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S1024, .f32⟩
  | .hbm, ⟨4, _⟩ => ⟨S32768x1, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S1x1024, .f32⟩
  | .hbm, ⟨10, _⟩ => ⟨S32768x1024, .f32⟩
  | .local _ .vmem, ⟨0, _⟩ => ⟨S4096x1, .f32⟩
  | .local _ .vmem, ⟨1, _⟩ => ⟨S4096x1, .f32⟩
  | .local _ .vmem, ⟨2, _⟩ => ⟨S1x1, .f32⟩
  | .local _ .vmem, ⟨3, _⟩ => ⟨S1x1024, .f32⟩
  | .local _ .vmem, ⟨4, _⟩ => ⟨S1x1024, .f32⟩
  | .local _ .vmem, ⟨5, _⟩ => ⟨S4096x1024, .f32⟩
  | .local _ .vmem, ⟨6, _⟩ => ⟨S4096x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S32768x1024_S32768x1_0_0 : S32768x1024.Slices ![0, 0] S32768x1
  slices_S1024_S1_0 : S1024.Slices ![0] S1
  shapeCasts_S1_S_ : S1.ShapeCasts S_
  shapeCasts_S_S1x1 : S_.ShapeCasts S1x1
  shapeCasts_S1024_S1x1024 : S1024.ShapeCasts S1x1024
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1024_S1x1024_0_0 : ∀ a, (![0, 0] : Fin 2 → Nat) a + S1x1024.size a ≤ S1x1024.size a
  h_S1x1024 : 0 < S1x1024.numel
  broadcasts_S4096x1_S4096x1024 : S4096x1.Broadcasts S4096x1024
  broadcasts_S1x1024_S4096x1024 : S1x1024.Broadcasts S4096x1024
  shapeCasts_S1x1024_S1x1024 : S1x1024.ShapeCasts S1x1024
  inb_S4096x1024_S4096x1024_0_0 : ∀ a, (![0, 0] : Fin 2 → Nat) a + S4096x1024.size a ≤ S4096x1024.size a
  h_S4096x1024 : 0 < S4096x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S32768x1.size a
  hwx0_0 : ∀ i : grid0.Coords, EltTy.bits .f32 = 32 ∨ (Rect.block (s := S32768x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S32768x1024.size a
  hwx0_4 : ∀ i : grid0.Coords, EltTy.bits .f32 = 32 ∨ (Rect.block (s := S32768x1024) S4096x1024.size (cc0_transform_4 i) (hinb0_4 i)).WholeWords (EltTy.packing .f32)

variable [Facts₀]

abbrev win0_0 : Pipeline.Window sig grid0 :=
  Pipeline.Window.ofSpec (Memref.whole main_v0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024 : Shape := ⟨1, ![1024]⟩
abbrev S1x1024 : Shape := ⟨2, ![1, 1024]⟩
abbrev S32768x1 : Shape := ⟨2, ![32768, 1]⟩
abbrev S32768 : Shape := ⟨1, ![32768]⟩
abbrev S_ : Shape := ⟨0, ![]⟩
abbrev S1 : Shape := ⟨1, ![1]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S1024, .f32⟩
  | .hbm, ⟨4, _⟩ => ⟨S32768x1, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  slices_S32768x1024_S32768x1_0_0 : S32768x1024.Slices ![0, 0] S32768x1
  shapeCasts_S32768x1_S32768 : S32768x1.ShapeCasts S32768
  bcast_S_S32768 : S_.BroadcastsInDim S32768 (![] : Fin 0 → Fin S32768.rank)
  slices_S1024_S1_0 : S1024.Slices ![0] S1
  shapeCasts_S1_S_ : S1.ShapeCasts S_
  bcast_S32768_S32768x1_0 : S32768.BroadcastsInDim S32768x1 (![0] : Fin 1 → Fin S32768x1.rank)
  shapeCasts_S1x1024_S1024 : S1x1024.ShapeCasts S1024
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)

variable [Facts₀]

class Facts : Prop extends Facts₀ where

variable [Facts]
-- ==== Proof.Layer.lean ====
/-
  The function both programs compute, stated once over the argument arrays.

  The layer takes a batch `x` of 32768 rows of 1024 features, angles `θ` (1024), a weight row `W` ([1, 1024]) and
  a bias `b` (1024). Only column 0 of `x` and entry 0 of `θ` enter: the expectation of row `r` is
  `z r = cos (π̂ · x[r, 0]) · cos (θ[0])`, with `π̂` the binary32 number nearest π (the same word on both sides, so it
  is never evaluated), and the result is the rank-one affine map `out[r, c] = z r · W[0, c] + b[c]`.
  Over the extended reals `cos` is the real cosine on the finite numbers with a fixed value at the infinities; the
  products and the sum are the extended reals' own. Both programs group the operations exactly as written here —
  `(cos (π̂ · x) · cos θ₀) · W + b` —, so no law of the extended reals is needed to join them, and finiteness of the
  inputs plays no part.
-/
import Idealize.ShloMosaic.PureOps.Ideal
import Idealize.ShloMosaic.Lib.ValueIdx

noncomputable section

namespace Cert.Layer

open Idealize.ShloMosaic Idealize.ShloMosaic.ValueIdx

/-- The binary32 number nearest π, as an extended real. -/
abbrev piHat : EReal := Ideal.ofBits .f32 0x40490FDB#32

/-- The expectation of row `r`: `cos (π̂ · x[r, 0]) · cos (θ[0])`. -/
def expect (x : FVec Ideal ⟨2, ![32768, 1024]⟩ .f32) (θ : FVec Ideal ⟨1, ![1024]⟩ .f32) (r : Fin 32768) : EReal :=
  Ideal.cos (piHat * x (ix2 r (0 : Fin 1024))) * Ideal.cos (θ (ix1 (0 : Fin 1024)))

/-- The layer's output: `out[r, c] = expect r · W[0, c] + b[c]`. -/
def out (x : FVec Ideal ⟨2, ![32768, 1024]⟩ .f32) (θ : FVec Ideal ⟨1, ![1024]⟩ .f32)
    (W : FVec Ideal ⟨2, ![1, 1024]⟩ .f32) (b : FVec Ideal ⟨1, ![1024]⟩ .f32) : FVec Ideal ⟨2, ![32768, 1024]⟩ .f32 :=
  fun i => expect x θ (i 0) * W (ix2 (0 : Fin 1) (i 1)) + b (ix1 (i 1))

/-- The output at row `r`, column `c`. -/
theorem out_apply (x : FVec Ideal ⟨2, ![32768, 1024]⟩ .f32) (θ : FVec Ideal ⟨1, ![1024]⟩ .f32)
    (W : FVec Ideal ⟨2, ![1, 1024]⟩ .f32) (b : FVec Ideal ⟨1, ![1024]⟩ .f32) (r : Fin 32768) (c : Fin 1024) :
    out x θ W b (ix2 r c) = expect x θ r * W (ix2 (0 : Fin 1) c) + b (ix1 c) := rfl

end Cert.Layer

end
-- ==== Proof.RefLayer.lean ====
/-
  The reference computes the layer.

  The reference takes column 0 of `x` as a vector of 32768 entries, multiplies it by π̂, takes the cosine, multiplies by
  the cosine of `θ[0]` (a one-entry slice reshaped to a scalar and broadcast back), spreads the resulting column over
  1024 columns, multiplies by the weight row spread over 32768 rows and adds the bias row spread likewise. Read at
  row `r`, column `c`, every layout step is a change of index — the column entry read is `x[r, 0]`, the weight read is
  `W[0, c]`, the bias read is `b[c]` — and what remains is the layer's formula, term for term.
-/
import proofs.«138634_j71760313582074_2_alg».proof.Proof.Gen.ReferenceIdeal.Read
import proofs.«138634_j71760313582074_2_alg».proof.Proof.Layer
import Idealize.ShloMosaic.Lib.ValueIdx
import Idealize.ShloMosaic.Lib.Pipeline.Value

noncomputable section

namespace Cert.ReferenceIdeal.RefLayer

open Cert.ReferenceIdeal Cert.ReferenceIdeal.Gen Cert.ReferenceIdeal.Read
open Idealize.ShloMosaic Idealize.ShloMosaic.ValueIdx

/-- The scalar the reference takes the second cosine of: the one-entry slice of `θ`, reshaped to rank 0, is `θ[0]`. -/
theorem theta0 (x1 : FVec Ideal S1024 .f32) (j : S_.Idx) :
    val_main_v6 (F := Ideal) x1 j = x1 (ix1 (0 : Fin 1024)) := by
  unfold val_main_v6
  rw [shapeCast_apply (val_main_v5 (F := Ideal) x1) shapeCasts_S1_S_ j (ix1 (0 : Fin 1)) (by
    rw [Shape.rowMajor_val_one]
    show 0 = (Shape.rowMajorPi S_.size j).val
    rw [Shape.rowMajorPi_zero])]
  rw [val_main_v5_apply]
  exact congrArg x1 (funext fun a => Fin.ext (by match a with | ⟨0, _⟩ => rfl))

/-- The column entry behind row `r`, whatever the column: `x[r, 0]`. -/
theorem idx_col (r : Fin 32768) (c : Fin 1024) :
    idx_main_v0 (idx_main_v1 (idx_main_v10 (idx_main_v13 (ix2 r c)))) = ix2 r (0 : Fin 1024) :=
  funext fun a => Fin.ext (by
    match a with
    | ⟨0, _⟩ => show r.val / 1 = r.val; exact Nat.div_one _
    | ⟨1, _⟩ => rfl)

/-- The weight entry behind column `c`, whatever the row: `W[0, c]`. -/
theorem idx_weight (r : Fin 32768) (c : Fin 1024) :
    idx_main_v11 (idx_main_v12 (idx_main_v14 (ix2 r c))) = ix2 (0 : Fin 1) c :=
  funext fun a => Fin.ext (by
    match a with
    | ⟨0, _⟩ => rfl
    | ⟨1, _⟩ => show c.val % 1024 = c.val; exact Nat.mod_eq_of_lt c.isLt)

/-- The bias entry behind column `c`, whatever the row: `b[c]`. -/
theorem idx_bias (r : Fin 32768) (c : Fin 1024) :
    idx_main_v16 (idx_main_v17 (ix2 r c)) = ix1 c :=
  funext fun a => Fin.ext (by match a with | ⟨0, _⟩ => rfl)

/-- The reference's result is the layer's output, entry by entry. -/
theorem result_eq (x0 : FVec Ideal S32768x1024 .f32) (x1 : FVec Ideal S1024 .f32) (x2 : FVec Ideal S1x1024 .f32)
    (x3 : FVec Ideal S1024 .f32) :
    val_main_v18 (F := Ideal) x0 x1 x2 x3 = Cert.Layer.out x0 x1 x2 x3 := by
  funext i
  obtain ⟨r, c, rfl⟩ : ∃ (r : Fin 32768) (c : Fin 1024), i = ix2 r c := ⟨i 0, i 1, eq_ix2 i⟩
  rw [Cert.Layer.out_apply]
  rw [val_main_v18_apply, val_main_v15_apply, val_main_v13_apply, val_main_v10_apply, val_main_v9_apply,
    val_main_v4_apply, val_main_v3_apply, val_main_v2_apply, val_main_cst_apply, val_main_v1_apply, val_main_v0_apply,
    val_main_v8_apply, val_main_v7_apply, theta0, val_main_v14_apply, val_main_v12_apply, val_main_v11_apply,
    val_main_v17_apply, val_main_v16_apply, idx_col, idx_weight, idx_bias]
  rfl

end Cert.ReferenceIdeal.RefLayer

end
-- ==== Proof.BodyPoint.lean ====
/-
  The kernel body at one entry of its output block.

  At a grid point the body holds a column block `x0` ([4096, 1]: 4096 rows of column 0 of `x`), the scalar `x1`
  ([1, 1]: the cosine of `θ[0]`, computed before the launch), the weight row `x2` and the bias row `x3` (both
  [1, 1024]). It multiplies the column by π̂, takes the cosine, multiplies by the scalar, spreads the column over 1024
  columns, multiplies by the weight row spread over 4096 rows and adds the bias row spread likewise. Every step is
  pointwise or a spreading of a unit axis, so the entry at row `p`, column `q` of the block depends on `x0[p, 0]`,
  `x1[0, 0]`, `x2[0, q]` and `x3[0, q]` only.
-/
import proofs.«138634_j71760313582074_2_alg».proof.Proof.Gen.KernelIdeal.Skeleton
import proofs.«138634_j71760313582074_2_alg».proof.Proof.Layer
import Idealize.ShloMosaic.Lib.ValueIdx
import Idealize.ShloMosaic.Lib.ValueLayout
import Idealize.ShloMosaic.Lib.Pipeline.Value

noncomputable section

namespace Cert.KernelIdeal.BodyPoint

open Cert.KernelIdeal Cert.KernelIdeal.Gen
open Idealize.ShloMosaic Idealize.ShloMosaic.ValueIdx

/-- A column spread over 1024 columns reads, at `(p, q)`, the column at `(p, 0)`. -/
theorem spread_col (v : FVec Ideal S4096x1 .f32) (p : Fin 4096) (q : Fin 1024) :
    broadcastTo S4096x1024 v broadcasts_S4096x1_S4096x1024 (ix2 p q) = v (ix2 p (0 : Fin 1)) := by
  refine broadcastTo_apply v broadcasts_S4096x1_S4096x1024 (ix2 p q) (ix2 p (0 : Fin 1)) fun a => ?_
  match a with
  | ⟨0, _⟩ => show p.val = if (4096 : Nat) = 1 then 0 else p.val; rw [if_neg (by decide)]
  | ⟨1, _⟩ => show 0 = if (1 : Nat) = 1 then 0 else q.val; rw [if_pos rfl]

/-- The one entry taken out of the [1, 1] block is its entry `(0, 0)`. -/
theorem scalar_entry (x1 : Vec Ideal S1x1 .f32) :
    extractAt ![0, 0] x1 inpos_S1x1_p0_0 = x1 (ix2 (0 : Fin 1) (0 : Fin 1)) :=
  congrArg x1 (funext fun a => Fin.ext (by match a with | ⟨0, _⟩ => rfl | ⟨1, _⟩ => rfl))

/-- The body's stored value at row `p`, column `q` of the block:
    `(cos (π̂ · x0[p, 0]) · x1[0, 0]) · x2[0, q] + x3[0, q]`. -/
theorem pay_apply (x0 : Vec Ideal S4096x1 .f32) (x1 : Vec Ideal S1x1 .f32) (x2 x3 : Vec Ideal S1x1024 .f32)
    (p : Fin 4096) (q : Fin 1024) :
    k0_pay1 (F := Ideal) x0 x1 x2 x3 (ix2 p q)
      = Ideal.cos (Cert.Layer.piHat * x0 (ix2 p (0 : Fin 1))) * x1 (ix2 (0 : Fin 1) (0 : Fin 1))
          * x2 (ix2 (0 : Fin 1) q) + x3 (ix2 (0 : Fin 1) q) := by
  unfold k0_pay1
  rw [addf_apply, mulf_apply, spread_col, broadcastTo_1b_ab_apply, broadcastTo_1b_ab_apply, shapeCast_self,
    shapeCast_self, mulf_apply, scalar_entry]
  rfl

end Cert.KernelIdeal.BodyPoint

end
-- ==== Proof.EntryBlocks.lean ====
/-
  What the launch finds in its four input arrays, and which entries each grid point's blocks hold.

  Before the launch the program prepares three arrays: column 0 of `x` as a [32768, 1] array; the scalar
  `cos (θ[0])` — the one-entry slice of `θ` reshaped to rank 0, its cosine taken, reshaped to [1, 1] —; and the bias
  `b` reshaped to a row [1, 1024]. The weight row `W` is passed as it is. The grid has 8 points; point `t` is handed
  rows `4096·t … 4096·t + 4095` of the column, and at every point the same scalar, weight row and bias row. So at
  point `t` the column block's entry `(p, 0)` is `x[4096·t + p, 0]`, the scalar block's entry is `cos (θ[0])`, the
  weight block's entry `(0, q)` is `W[0, q]` and the bias block's entry `(0, q)` is `b[q]`.
-/
import proofs.«138634_j71760313582074_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.Lib.Tactic

noncomputable section

namespace Cert.KernelIdeal.EntryBlocks

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The arrays at region entry -/

/-- The first window's array is column 0 of `x`. -/
theorem entry_col (c : Dev nD) :
    (V m c main_v0 : S32768x1.Idx → EReal)
      = extractStridedSlice S32768x1 ![0, 0] (m ((c : Thread nD τ).loc main_arg0)) slices_S32768x1024_S32768x1_0_0 := by
  dsimp only [Gen.V, Gen.hostOps0]; after_results <;> rfl

/-- The second window's array is the scalar `cos (θ[0])`, laid out as [1, 1]. -/
theorem entry_scalar (c : Dev nD) :
    (V m c main_v4 : S1x1.Idx → EReal)
      = shapeCast S1x1 (Host.cos (F := Ideal) (φ := .f32) (shapeCast S_
          (extractStridedSlice S1 ![0] (m ((c : Thread nD τ).loc main_arg1) : S1024.Idx → EReal) slices_S1024_S1_0)
          shapeCasts_S1_S_)) shapeCasts_S_S1x1 := by
  dsimp only [Gen.V, Gen.hostOps0]; after_results <;> rfl

/-- The fourth window's array is the bias laid out as a row. -/
theorem entry_bias (c : Dev nD) :
    (V m c main_v5 : S1x1024.Idx → EReal)
      = shapeCast S1x1024 (m ((c : Thread nD τ).loc main_arg3)) shapeCasts_S1024_S1x1024 := by
  dsimp only [Gen.V, Gen.hostOps0]; after_results <;> rfl

/-- The scalar array's entry is `cos (θ[0])`. -/
theorem scalar_apply (θ : FVec Ideal S1024 .f32) (j : S1x1.Idx) :
    shapeCast S1x1 (Host.cos (F := Ideal) (φ := .f32) (shapeCast S_ (extractStridedSlice S1 ![0] θ slices_S1024_S1_0)
      shapeCasts_S1_S_)) shapeCasts_S_S1x1 j = Ideal.cos (θ (ix1 (0 : Fin 1024))) := by
  have hj0 : (j 0).val = 0 := by have h : (j 0).val < 1 := (j 0).isLt; omega
  have hj1 : (j 1).val = 0 := by have h : (j 1).val < 1 := (j 1).isLt; omega
  rw [shapeCast_apply _ shapeCasts_S_S1x1 j ix0 (by
    rw [Shape.rowMajor_val_two]
    show (Shape.rowMajorPi S_.size ix0).val = (j 0).val * 1 + (j 1).val
    rw [Shape.rowMajorPi_zero, hj0, hj1])]
  show Ideal.cos (shapeCast S_ (extractStridedSlice S1 ![0] θ slices_S1024_S1_0) shapeCasts_S1_S_ ix0) = _
  rw [shapeCast_apply _ shapeCasts_S1_S_ ix0 (ix1 (0 : Fin 1)) (by
    rw [Shape.rowMajor_val_one]
    show 0 = (Shape.rowMajorPi S_.size ix0).val
    rw [Shape.rowMajorPi_zero])]
  rw [extractStridedSlice_apply ![0] θ slices_S1024_S1_0 (ix1 (0 : Fin 1)) (ix1 (0 : Fin 1024)) (fun a => by
    match a with | ⟨0, _⟩ => rfl)]

/-! ## The index maps, decided over the 8 grid points -/

/-- Point `t`'s column block and output block are block `t` along the rows; the three shared blocks sit at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The four input blocks at point `t` -/

/-- The column block at point `t`: entry `(p, 0)` is `x[4096·t + p, 0]`. -/
theorem col_block (c : Dev nD) (t : Fin cfg0.N) (p : Fin 4096) (k : S32768x1024.Idx)
    (hk0 : (k 0).val = t.val * 4096 + p.val) (hk1 : (k 1).val = 0) :
    (iblk m c 0 t : Vec Ideal S4096x1 .f32) (ix2 p (0 : Fin 1))
      = (m ((c : Thread nD τ).loc main_arg0) : S32768x1024.Idx → EReal) k := by
  obtain ⟨e0, e1, -⟩ := idx_facts t
  unfold iblk
  rw [View.read_apply]
  show V m c main_v0 _ = _
  rw [entry_col]
  refine extractStridedSlice_apply _ _ _ _ k fun a => ?_
  match a with
  | ⟨0, _⟩ => show (k 0).val = 0 + (win0_0.index t (0 : Fin 2) * 4096 + 1 * p.val); rw [e0, hk0]; omega
  | ⟨1, _⟩ => show (k 1).val = 0 + (win0_0.index t (1 : Fin 2) * 1 + 1 * 0); rw [e1, hk1]

/-- The scalar block at every point: its entry is `cos (θ[0])`. -/
theorem scalar_block (c : Dev nD) (t : Fin cfg0.N) :
    (iblk m c 1 t : Vec Ideal S1x1 .f32) (ix2 (0 : Fin 1) (0 : Fin 1))
      = Ideal.cos ((m ((c : Thread nD τ).loc main_arg1) : S1024.Idx → EReal) (ix1 (0 : Fin 1024))) := by
  unfold iblk
  rw [View.read_apply]
  show V m c main_v4 _ = _
  rw [entry_scalar]
  exact scalar_apply _ _

/-- The weight block at every point: entry `(0, q)` is `W[0, q]`. -/
theorem weight_block (c : Dev nD) (t : Fin cfg0.N) (q : Fin 1024) :
    (iblk m c 2 t : Vec Ideal S1x1024 .f32) (ix2 (0 : Fin 1) q)
      = (m ((c : Thread nD τ).loc main_arg2) : S1x1024.Idx → EReal) (ix2 (0 : Fin 1) q) := by
  obtain ⟨-, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = q.val; rw [e1]; omega

/-- The bias block at every point: entry `(0, q)` is `b[q]`. -/
theorem bias_block (c : Dev nD) (t : Fin cfg0.N) (q : Fin 1024) :
    (iblk m c 3 t : Vec Ideal S1x1024 .f32) (ix2 (0 : Fin 1) q)
      = (m ((c : Thread nD τ).loc main_arg3) : S1024.Idx → EReal) (ix1 q) := by
  obtain ⟨-, -, -, -, -, -, e0, e1, -⟩ := idx_facts t
  unfold iblk
  rw [View.read_apply]
  show V m c main_v5 _ = _
  rw [entry_bias]
  refine (shapeCast_apply _ shapeCasts_S1024_S1x1024 _ (ix1 q) ?_)
  rw [Shape.rowMajor_val_two, Shape.rowMajor_val_one]
  show q.val = (win0_3.index t (0 : Fin 2) * 1 + 1 * 0) * 1024 + (win0_3.index t (1 : Fin 2) * 1024 + 1 * q.val)
  rw [e0, e1]; omega

end Cert.KernelIdeal.EntryBlocks

end
-- ==== Proof.WholeArray.lean ====
/-
  From the blocks to the whole output array.

  Grid point `t` writes back rows `4096·t … 4096·t + 4095` of the output, all 1024 columns. The entry it writes at
  `(p, q)` is the body's value there, which depends on the column block's `(p, 0)`, the scalar and the weight and
  bias rows' `(0, q)`: those are `x[4096·t + p, 0]`, `cos (θ[0])`, `W[0, q]` and `b[q]`, so the entry is the layer's
  output at `(4096·t + p, q)` — each point writes its own block of ONE function of the argument arrays. The eight
  blocks cover the array (row `r` lies in block `r / 4096`), so after the run the array is the layer's output.
-/
import proofs.«138634_j71760313582074_2_alg».proof.Proof.Gen.KernelIdeal.Value
import proofs.«138634_j71760313582074_2_alg».proof.Proof.BodyPoint
import proofs.«138634_j71760313582074_2_alg».proof.Proof.EntryBlocks
import Idealize.ShloMosaic.Lib.Pipeline.Value
import Idealize.ShloMosaic.Lib.Tactic

noncomputable section

namespace Cert.KernelIdeal.WholeArray

open Cert.KernelIdeal Cert.KernelIdeal.Gen Cert.KernelIdeal.EntryBlocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's output of the argument arrays as launched on core `c`. -/
abbrev layerOf (c : Dev nD) : FVec Ideal S32768x1024 .f32 :=
  Cert.Layer.out (m ((c : Thread nD τ).loc main_arg0)) (m ((c : Thread nD τ).loc main_arg1))
    (m ((c : Thread nD τ).loc main_arg2)) (m ((c : Thread nD τ).loc main_arg3))

theorem zero_offsets : (![0, 0] : Fin 2 → Nat) = fun _ => 0 := funext fun a => by fin_cases a <;> rfl

/-- The body's value at entry `y` of point `t`'s block is the layer's output at the array index `i` that entry sits
    at: row `4096·t + y₀`, column `y₁`. -/
theorem block_entry (c : Dev nD) (t : Fin cfg0.N) (y : S4096x1024.Idx) (i : S32768x1024.Idx)
    (hi0 : (i 0).val = t.val * 4096 + (y 0).val) (hi1 : (i 1).val = (y 1).val) :
    k0_pay1 (F := Ideal) (iblk m c 0 t) (iblk m c 1 t) (iblk m c 2 t) (iblk m c 3 t) y = layerOf m c i := by
  obtain ⟨p, q, rfl⟩ : ∃ (p : Fin 4096) (q : Fin 1024), y = ix2 p q := ⟨y 0, y 1, eq_ix2 y⟩
  obtain ⟨r, s, rfl⟩ : ∃ (r : Fin 32768) (s : Fin 1024), i = ix2 r s := ⟨i 0, i 1, eq_ix2 i⟩
  obtain rfl : s = q := Fin.ext hi1
  refine (BodyPoint.pay_apply (iblk m c 0 t) (iblk m c 1 t) (iblk m c 2 t) (iblk m c 3 t) p s).trans ?_
  have h0 := col_block m c t p (ix2 r (0 : Fin 1024)) hi0 rfl
  have h1 := scalar_block m c t
  have h2 := weight_block m c t s
  have h3 := bias_block m c t s
  rw [h0, h1, h2, h3]
  rfl

/-- What point `t` writes back is block `t` of the layer's output. -/
theorem flushed_eq (c : Dev nD) (t : Fin cfg0.N) :
    (dats m 0 c).flushed 4 t = ((cfg0.win 4).blk t).view.read (Elt Ideal) (layerOf m c) := by
  rw [Value.flushed4]
  unfold out0_4
  rw [View.canon_unit_zero zero_offsets]
  simp only [View.ld_unit_zero (S := S4096x1) zero_offsets, View.ld_unit_zero (S := S1x1) zero_offsets,
    View.ld_unit_zero (S := S1x1024) zero_offsets]
  obtain ⟨-, -, -, -, -, -, -, -, e0, e1⟩ := idx_facts t
  funext j
  show k0_pay1 (F := Ideal) (iblk m c 0 t) (iblk m c 1 t) (iblk m c 2 t) (iblk m c 3 t) j
    = layerOf m c (((cfg0.win 4).blk t).view.emb j)
  refine block_entry m c t j _ ?_ ?_
  · show win0_4.index t (0 : Fin 2) * 4096 + 1 * (j 0).val = t.val * 4096 + (j 0).val
    rw [e0]; omega
  · show win0_4.index t (1 : Fin 2) * 1024 + 1 * (j 1).val = (j 1).val
    rw [e1]; omega

/-- An index of the array is in point `t`'s block iff each coordinate is in the block's range on its axis. -/
theorem mem_blk (t : Fin cfg0.N) (i : S32768x1024.Idx) :
    i ∈ ((cfg0.win 4).blk t).view.set ↔ ∀ a : Fin 2, win0_4.index t a * S4096x1024.size a ≤ (i a).val
      ∧ (i a).val < win0_4.index t a * S4096x1024.size a + S4096x1024.size a := by
  show i ∈ ((View.whole main_v6).slice (win0_4.rect t)).set ↔ _
  rw [View.set_slice_whole, Rect.mem_set_unit]
  exact Iff.rfl

/-- Every index of the array is in some point's block: row `r` is in block `r / 4096`. -/
theorem cover (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  have hN : cfg0.N = 8 := N_0
  have ht : (i 0).val / 4096 < cfg0.N := by rw [hN]; omega
  obtain ⟨-, -, -, -, -, -, -, -, e0, e1⟩ := idx_facts ⟨(i 0).val / 4096, ht⟩
  refine ⟨⟨(i 0).val / 4096, ht⟩, flush0_4 _, ?_⟩
  rw [mem_blk]
  intro a
  match a with
  | ⟨0, _⟩ =>
    show win0_4.index ⟨(i 0).val / 4096, ht⟩ (0 : Fin 2) * 4096 ≤ (i 0).val
      ∧ (i 0).val < win0_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_4.index ⟨(i 0).val / 4096, ht⟩ (1 : Fin 2) * 1024 ≤ (i 1).val
      ∧ (i 1).val < win0_4.index ⟨(i 0).val / 4096, ht⟩ (1 : Fin 2) * 1024 + 1024
    rw [e1]; omega

/-- After the run the output array is the layer's output of the argument arrays. -/
theorem final (c : Dev nD) : (dats m 0 c).arrAt 4 cfg0.N = layerOf m c :=
  (dats m 0 c).arrAt_eq_of_cover 4 (layerOf m c) (fun t _ => flushed_eq m c t) cover

/-- The kernel's run, read: every weakly fair execution terminates with the result array at the layer's output of the
    arguments, the arguments unchanged. -/
theorem run : θ_run defs (onTc (τ := τ) (main (F := Ideal))) ⟨m, fun _ => 0, ρ⟩ fun r => ∀ c : Dev nD,
      r.2.mem ((c : Thread nD τ).loc main_v6) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.WholeArray

end
-- ==== Proof.lean ====
/-
  A quantum-layer kernel against its jnp reference, equal over the extended reals.

  Both programs compute, from a batch `x` ([32768, 1024]), angles `θ` ([1024]), a weight row `W` ([1, 1024]) and a
  bias `b` ([1024]),
      out[r, c] = (cos (π̂ · x[r, 0]) · cos (θ[0])) · W[0, c] + b[c],
  where `π̂` is the binary32 number nearest π (Proof/Layer.lean states this function once). The kernel cuts the rows
  into 8 blocks of 4096, computes `cos (θ[0])` and column 0 of `x` before the launch, and forms each output block
  from a column block, the scalar and the two rows by spreading unit axes; the reference does the same arithmetic on
  whole arrays. The cosine inside the kernel and the one outside it are one function on the extended reals, the
  literal π̂ is the same word on both sides, and the operations are grouped alike, so the two results agree entry by
  entry with no algebraic law and with no use of the inputs' finiteness.

  The parts: the reference's result is the layer (Proof/RefLayer.lean, over the generated read-at-an-index lemmas);
  the kernel body's value at one entry of a block (Proof/BodyPoint.lean); the arrays the launch finds and each
  point's blocks (Proof/EntryBlocks.lean); the eight blocks assembled into the whole array and the kernel's run
  (Proof/WholeArray.lean, over the generated blockwise run). The three frames are the generated ones; the
  idealization rewrote nothing, so `preserves` is trivial.
-/
import proofs.«138634_j71760313582074_2_alg».proof.Defs
import proofs.«138634_j71760313582074_2_alg».proof.Proof.Gen.Kernel
import proofs.«138634_j71760313582074_2_alg».proof.Proof.Gen.Kernel.Skeleton
import proofs.«138634_j71760313582074_2_alg».proof.Proof.Gen.Kernel.Launch
import proofs.«138634_j71760313582074_2_alg».proof.Proof.Gen.Kernel.Points
import proofs.«138634_j71760313582074_2_alg».proof.Proof.Gen.Kernel.Frame
import proofs.«138634_j71760313582074_2_alg».proof.Proof.Gen.KernelIdeal
import proofs.«138634_j71760313582074_2_alg».proof.Proof.Gen.KernelIdeal.Skeleton
import proofs.«138634_j71760313582074_2_alg».proof.Proof.Gen.KernelIdeal.Launch
import proofs.«138634_j71760313582074_2_alg».proof.Proof.Gen.KernelIdeal.Points
import proofs.«138634_j71760313582074_2_alg».proof.Proof.Gen.KernelIdeal.Frame
import proofs.«138634_j71760313582074_2_alg».proof.Proof.Gen.ReferenceIdeal
import proofs.«138634_j71760313582074_2_alg».proof.Proof.Gen.Pre_finite_inputs
import proofs.«138634_j71760313582074_2_alg».proof.Proof.Gen.KernelIdeal.Value
import proofs.«138634_j71760313582074_2_alg».proof.Proof.Gen.ReferenceIdeal.Run
import proofs.«138634_j71760313582074_2_alg».proof.Proof.Gen.ReferenceIdeal.Read
import proofs.«138634_j71760313582074_2_alg».proof.Proof.Layer
import proofs.«138634_j71760313582074_2_alg».proof.Proof.RefLayer
import proofs.«138634_j71760313582074_2_alg».proof.Proof.WholeArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories agreeing on the four arguments, the kernel's result array and the reference's both end at the
    layer's output of those arguments. -/
theorem algebraic : Cert.algebraic_KernelIdeal_ReferenceIdeal := by
  intro m ρ m' ρ' _ hagree
  refine ⟨fun c => Cert.KernelIdeal.WholeArray.layerOf m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefLayer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
